-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2x4096x1 : Shape := ⟨3, ![2, 4096, 1]⟩
abbrev S_ : Shape := ⟨0, ![]⟩
abbrev S1x4096x1 : Shape := ⟨3, ![1, 4096, 1]⟩
abbrev S4096x1 : Shape := ⟨2, ![4096, 1]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x4096x1 : S_.BroadcastsInDim S2x4096x1 (![] : Fin 0 → Fin S2x4096x1.rank)
  reducesTo_S2x4096x1_S_d0_1_2 : S2x4096x1.ReducesTo [0, 1, 2] S_
  slices_S2x4096x1_S1x4096x1_0_0_0 : S2x4096x1.Slices ![0, 0, 0] S1x4096x1
  shapeCasts_S1x4096x1_S4096x1 : S1x4096x1.ShapeCasts S4096x1
  bcast_S_S4096x1 : S_.BroadcastsInDim S4096x1 (![] : Fin 0 → Fin S4096x1.rank)
  reducesTo_S4096x1_S_d0_1 : S4096x1.ReducesTo [0, 1] S_
  slices_S2x4096x1_S1x4096x1_1_0_0 : S2x4096x1.Slices ![1, 0, 0] S1x4096x1

variable [Facts]

def fn_part1 {F : FTy → Type} [FloatOps F] (main_arg2 : FVec F S2x4096x1 .f32) (main_v13 : IVec S_ 1) (main_v15 : FVec F S4096x1 .f32) (main_v16 : FVec F S4096x1 .f32) : IVec S_ 1 :=
  let main_v17 : IVec S4096x1 1 := cmpf .une main_v15 main_v16
  let main_c_5 : IVec S_ 1 := constantI S_ 1 0#1
  let main_v18 : IVec S_ 1 := (fun x v => Host.reduce IntOp.ori x v reducesTo_S4096x1_S_d0_1 h_S_) main_v17 main_c_5
  let main_v19 : IVec S_ 1 := andi main_v13 main_v18
  let main_v20 : FVec F S1x4096x1 .f32 := (extractStridedSlice S1x4096x1 ![1, 0, 0] · slices_S2x4096x1_S1x4096x1_1_0_0) main_arg2
  let main_v21 : FVec F S4096x1 .f32 := shapeCast S4096x1 main_v20 shapeCasts_S1x4096x1_S4096x1
  let main_cst_6 : FVec F S_ .f32 := constant S_ .f32 0x00000000#32
  let main_v22 : FVec F S4096x1 .f32 := broadcastInDim S4096x1 ![] bcast_S_S4096x1 main_cst_6
  let main_v23 : IVec S4096x1 1 := cmpf .une main_v21 main_v22
  let main_c_7 : IVec S_ 1 := constantI S_ 1 0#1
  let main_v24 : IVec S_ 1 := (fun x v => Host.reduce IntOp.ori x v reducesTo_S4096x1_S_d0_1 h_S_) main_v23 main_c_7
  let main_v25 : IVec S_ 1 := andi main_v19 main_v24
  main_v25

def fn {F : FTy → Type} [FloatOps F] (main_arg0 : FVec F S8192x4096 .f32) (main_arg1 : FVec F S8192x4096 .f32) (main_arg2 : FVec F S2x4096x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S2x4096x1 .f32 := Host.absf main_arg2
  let main_cst_2 : FVec F S_ .f32 := constant S_ .f32 0x7F800000#32
  let main_v10 : FVec F S2x4096x1 .f32 := broadcastInDim S2x4096x1 ![] bcast_S_S2x4096x1 main_cst_2
  let main_v11 : IVec S2x4096x1 1 := cmpf .olt main_v9 main_v10
  let main_c_3 : IVec S_ 1 := constantI S_ 1 1#1
  let main_v12 : IVec S_ 1 := (fun x v => Host.reduce IntOp.andi x v reducesTo_S2x4096x1_S_d0_1_2 h_S_) main_v11 main_c_3
  let main_v13 : IVec S_ 1 := andi main_v8 main_v12
  let main_v14 : FVec F S1x4096x1 .f32 := (extractStridedSlice S1x4096x1 ![0, 0, 0] · slices_S2x4096x1_S1x4096x1_0_0_0) main_arg2
  let main_v15 : FVec F S4096x1 .f32 := shapeCast S4096x1 main_v14 shapeCasts_S1x4096x1_S4096x1
  let main_cst_4 : FVec F S_ .f32 := constant S_ .f32 0x00000000#32
  let main_v16 : FVec F S4096x1 .f32 := broadcastInDim S4096x1 ![] bcast_S_S4096x1 main_cst_4
  fn_part1 (F := F) main_arg2 main_v13 main_v15 main_v16
-- ==== Kernel.lean ====
abbrev S8192x4096 : Shape := ⟨2, ![8192, 4096]⟩
abbrev S2x4096x1 : Shape := ⟨3, ![2, 4096, 1]⟩
abbrev S1x4096x1 : Shape := ⟨3, ![1, 4096, 1]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S8192x1x4096 : Shape := ⟨3, ![8192, 1, 4096]⟩

abbrev nBuf : Space → Nat
  | .hbm => 27
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096x1, .f32⟩
  | .hbm, ⟨3, _⟩ => ⟨S1x4096x1, .f32⟩
  | .hbm, ⟨4, _⟩ => ⟨S4096x1, .f32⟩
  | .hbm, ⟨5, _⟩ => ⟨S1x4096x1, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S4096x1, .f32⟩
  | .hbm, ⟨20, _⟩ => ⟨S4096x1, .f32⟩
  | .hbm, ⟨21, _⟩ => ⟨S1x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x1x4096, .f32⟩
  | .hbm, ⟨26, _⟩ => ⟨S8192x1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x4096x1_S1x4096x1_0_0_0 : S2x4096x1.Slices ![0, 0, 0] S1x4096x1
  shapeCasts_S1x4096x1_S4096x1 : S1x4096x1.ShapeCasts S4096x1
  slices_S2x4096x1_S1x4096x1_1_0_0 : S2x4096x1.Slices ![1, 0, 0] S1x4096x1
  reducesTo_S4096x1_S1_d0 : S4096x1.ReducesTo [0] S1
  h_S_ : 0 < S_.numel
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  transposes_S4096x1_S1x4096_1_0 : S4096x1.Transposes [1, 0] S1x4096
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  bcast_S8192x4096_S8192x1x4096_0_2 : S8192x4096.BroadcastsInDim S8192x1x4096 (![0, 2] : Fin 2 → Fin S8192x1x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S8192x4096.size a
  hwx0_1 : ∀ i : grid0.Coords, EltTy.bits .f32 = 32 ∨ (Rect.block (s := S8192x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S8192x4096.size a
  hwx0_5 : ∀ i : grid0.Coords, EltTy.bits .f32 = 32 ∨ (Rect.block (s := S8192x4096) S128x4096.size (cc0_transform_5 i) (hinb0_5 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S128x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S2x4096x1 : Shape := ⟨3, ![2, 4096, 1]⟩
abbrev S1x4096x1 : Shape := ⟨3, ![1, 4096, 1]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S1x4096 : Shape := ⟨2, ![1, 4096]⟩
abbrev S4096x4096 : Shape := ⟨2, ![4096, 4096]⟩
abbrev S8192x1x4096 : Shape := ⟨3, ![8192, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096x1, .f32⟩
  | .hbm, ⟨3, _⟩ => ⟨S1x4096x1, .f32⟩
  | .hbm, ⟨4, _⟩ => ⟨S4096x1, .f32⟩
  | .hbm, ⟨5, _⟩ => ⟨S1x4096x1, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S4096x1, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x1x4096, .f32⟩
  | .hbm, ⟨32, _⟩ => ⟨S8192x1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x4096x1_S1x4096x1_0_0_0 : S2x4096x1.Slices ![0, 0, 0] S1x4096x1
  shapeCasts_S1x4096x1_S4096x1 : S1x4096x1.ShapeCasts S4096x1
  slices_S2x4096x1_S1x4096x1_1_0_0 : S2x4096x1.Slices ![1, 0, 0] S1x4096x1
  reducesTo_S4096x1_S1_d0 : S4096x1.ReducesTo [0] S1
  h_S_ : 0 < S_.numel
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  transposes_S4096x1_S1x4096_1_0 : S4096x1.Transposes [1, 0] S1x4096
  bcast_S8192x4096_S8192x1x4096_0_2 : S8192x4096.BroadcastsInDim S8192x1x4096 (![0, 2] : Fin 2 → Fin S8192x1x4096.rank)
  dot_S4096x1_S1x4096_S4096x4096_1_0_0_1_n_n_wf : DotDims.WF S4096x1 S1x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.KernelPayload.lean ====
/-
  The kernel body's two results at one element of a 128 × 4096 block.

  From a block `x0`, `x1` of each matrix (128 rows) and the two unit rows `x2`, `x3` (each [1, 4096]) the body forms, per row `p`,
  the four coefficients `∑ k, x·(p, k) · x·(0, k)` (a product with the row repeated down the block, summed along the lanes, kept
  as a column) and stores

    (∑ k, x0 (p, k) · x2 (0, k)) · x2 (0, q) − (∑ k, x1 (p, k) · x3 (0, k)) · x3 (0, q)      and
    (∑ k, x0 (p, k) · x3 (0, k)) · x3 (0, q) + (∑ k, x1 (p, k) · x2 (0, k)) · x2 (0, q)

  at (p, q): each coefficient column repeated along the lanes, times the row repeated down the block.
-/
import proofs.«160668_j85813446574645_2_alg».proof.Proof.Gen.KernelIdeal.Skeleton
import proofs.«160668_j85813446574645_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A [1, 4096] row, cast to its own shape and repeated down 128 rows, reads at (p, q) the row's entry q. -/
theorem row_apply (r : FVec Ideal S1x4096 .f32) (hc : S1x4096.ShapeCasts S1x4096) (hb : S1x4096.Broadcasts S128x4096)
    (p : Fin 128) (q : Fin 4096) :
    broadcastTo S128x4096 (shapeCast S1x4096 r hc) hb (ix2 p q) = r (ix2 (0 : Fin 1) q) := by
  rw [shapeCast_self]
  exact broadcastTo_1b_ab_apply r hb p q

/-- The sum along the lanes of a 128 × 4096 block, at row p, is the sum over the 4096 lanes of that row. -/
theorem laneSum_apply (src : FVec Ideal S128x4096 .f32) (h : S128x4096.Reduces [1] S128) (hφ : FKind.Formats FTy.f32)
    (hacc : (0x00000000#32 : BitVec 32) = 0x00000000#32) (p : Fin 128) :
    multiReduction .add [1] S128 src 0x00000000#32 h hφ hacc (ix1 p) = ∑ k : Fin 4096, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- A row's coefficient against a unit row, kept as a column and repeated along the lanes: at (p, q) it is `∑ k, a (p, k) · r (0, k)`. -/
theorem coeff_apply (a : FVec Ideal S128x4096 .f32) (r : FVec Ideal S1x4096 .f32) (hc : S1x4096.ShapeCasts S1x4096)
    (hb : S1x4096.Broadcasts S128x4096) (hr : S128x4096.Reduces [1] S128) (hφ : FKind.Formats FTy.f32)
    (hacc : (0x00000000#32 : BitVec 32) = 0x00000000#32) (hc2 : S128.ShapeCasts S128x1) (hb2 : S128x1.Broadcasts S128x4096)
    (p : Fin 128) (q : Fin 4096) :
    broadcastTo S128x4096 (shapeCast S128x1
        (multiReduction .add [1] S128 (mulf a (broadcastTo S128x4096 (shapeCast S1x4096 r hc) hb)) 0x00000000#32 hr hφ hacc) hc2) hb2 (ix2 p q)
      = ∑ k : Fin 4096, a (ix2 p k) * r (ix2 (0 : Fin 1) k) := by
  refine (broadcastTo_a1_ab_apply _ hb2 p q).trans ?_
  refine (shapeCast_a_a1_apply _ hc2 p (0 : Fin 1)).trans ?_
  refine (laneSum_apply _ hr hφ hacc p).trans ?_
  refine Finset.sum_congr rfl fun k _ => ?_
  show a (ix2 p k) * broadcastTo S128x4096 (shapeCast S1x4096 r hc) hb (ix2 p k) = _
  rw [row_apply]

/-- The first stored block (the real part) at (p, q). -/
theorem pay3_apply (x0 x1 : Vec Ideal S128x4096 .f32) (x2 x3 : Vec Ideal S1x4096 .f32) (p : Fin 128) (q : Fin 4096) :
    k0_pay3 x0 x1 x2 x3 (ix2 p q)
      = (∑ k : Fin 4096, x0 (ix2 p k) * x2 (ix2 (0 : Fin 1) k)) * x2 (ix2 (0 : Fin 1) q)
        - (∑ k : Fin 4096, x1 (ix2 p k) * x3 (ix2 (0 : Fin 1) k)) * x3 (ix2 (0 : Fin 1) q) := by
  unfold k0_pay3 k0_pay1 k0_pay2
  dsimp only
  exact congrArg₂ (fun a b : EReal => a - b)
    (congrArg₂ (fun a b : EReal => a * b) (coeff_apply x0 x2 _ _ _ _ _ _ _ p q) (row_apply x2 _ _ p q))
    (congrArg₂ (fun a b : EReal => a * b) (coeff_apply x1 x3 _ _ _ _ _ _ _ p q) (row_apply x3 _ _ p q))

/-- The second stored block (the imaginary part) at (p, q). -/
theorem pay4_apply (x0 x1 : Vec Ideal S128x4096 .f32) (x2 x3 : Vec Ideal S1x4096 .f32) (p : Fin 128) (q : Fin 4096) :
    k0_pay4 x0 x1 x2 x3 (ix2 p q)
      = (∑ k : Fin 4096, x0 (ix2 p k) * x3 (ix2 (0 : Fin 1) k)) * x3 (ix2 (0 : Fin 1) q)
        + (∑ k : Fin 4096, x1 (ix2 p k) * x2 (ix2 (0 : Fin 1) k)) * x2 (ix2 (0 : Fin 1) q) := by
  unfold k0_pay4 k0_pay1 k0_pay2
  dsimp only
  exact congrArg₂ (fun a b : EReal => a + b)
    (congrArg₂ (fun a b : EReal => a * b) (coeff_apply x0 x3 _ _ _ _ _ _ _ p q) (row_apply x3 _ _ p q))
    (congrArg₂ (fun a b : EReal => a * b) (coeff_apply x1 x2 _ _ _ _ _ _ _ p q) (row_apply x2 _ _ p q))

end Cert.KernelIdeal.Payload

end
-- ==== Proof.Rank1.lean ====
/-
  The mathematics of the rank-one projection, on the extended reals.

  With `pr`, `pi` two vectors of length 4096 (the two projector columns, each divided by its Euclidean norm) and `vr`, `vi`
  two 8192 × 4096 matrices, the result is

    outRe b d = (∑ k, vr b k · pr k) · pr d − (∑ k, vi b k · pi k) · pi d
    outIm b d = (∑ k, vr b k · pi k) · pi d + (∑ k, vi b k · pr k) · pr d.

  One side computes it in this form: a row's coefficient against a column, then the coefficient times the column's entry.
  The other side multiplies by the rank-one matrix `P k d = pr k · pr d`, that is `∑ k, vr b k · (pr k · pr d)`. The two agree
  because a real factor moves across a finite sum of reals. On the extended reals this needs every term to be a real
  number: `x · (a + b) = x · a + x · b` fails at the infinities. So the module also shows that a column with real entries,
  not all zero, has a positive real norm, and so real normalised entries.
-/
import Idealize.ShloMosaic.PureOps.Ideal
import Idealize.ShloMosaic.PureOps.Ideal.Laws
import Idealize.ShloMosaic.Lib.ValueIdx

noncomputable section

namespace Cert.Rank1

open Idealize.ShloMosaic

/-- An extended real that is a real number (neither infinity). -/
def IsReal (x : EReal) : Prop := ∃ r : ℝ, x = (r : EReal)

/-- The real part of the projected vector: row `b`'s coefficients against the two unit columns, spread back along them. -/
def outRe (vr vi : Fin 8192 → Fin 4096 → EReal) (pr pi : Fin 4096 → EReal) (b : Fin 8192) (d : Fin 4096) : EReal :=
  (∑ k, vr b k * pr k) * pr d - (∑ k, vi b k * pi k) * pi d

/-- The imaginary part. -/
def outIm (vr vi : Fin 8192 → Fin 4096 → EReal) (pr pi : Fin 4096 → EReal) (b : Fin 8192) (d : Fin 4096) : EReal :=
  (∑ k, vr b k * pi k) * pi d + (∑ k, vi b k * pr k) * pr d

/-- The real part as an [8192, 4096] array, from the two matrices as arrays and the two unit vectors stored as [1, 4096] rows. -/
def arrRe (x0 x1 : (⟨2, ![8192, 4096]⟩ : Shape).Idx → EReal) (r2 r3 : (⟨2, ![1, 4096]⟩ : Shape).Idx → EReal) :
    (⟨2, ![8192, 4096]⟩ : Shape).Idx → EReal := fun i =>
  outRe (fun b k => x0 (ValueIdx.ix2 b k)) (fun b k => x1 (ValueIdx.ix2 b k)) (fun k => r2 (ValueIdx.ix2 (0 : Fin 1) k))
    (fun k => r3 (ValueIdx.ix2 (0 : Fin 1) k)) (i 0) (i 1)

/-- The imaginary part as an [8192, 4096] array. -/
def arrIm (x0 x1 : (⟨2, ![8192, 4096]⟩ : Shape).Idx → EReal) (r2 r3 : (⟨2, ![1, 4096]⟩ : Shape).Idx → EReal) :
    (⟨2, ![8192, 4096]⟩ : Shape).Idx → EReal := fun i =>
  outIm (fun b k => x0 (ValueIdx.ix2 b k)) (fun b k => x1 (ValueIdx.ix2 b k)) (fun k => r2 (ValueIdx.ix2 (0 : Fin 1) k))
    (fun k => r3 (ValueIdx.ix2 (0 : Fin 1) k)) (i 0) (i 1)

/-- The coercion of the reals into the extended reals commutes with finite sums. -/
theorem coe_sum {K : Type} (s : Finset K) (f : K → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor moves across a finite sum of products of reals: `∑ a k · (p k · q) = (∑ a k · p k) · q`. -/
theorem sum_mul_mul_of_real {K : Type} [Fintype K] (a p : K → EReal) (q : EReal)
    (ha : ∀ k, IsReal (a k)) (hp : ∀ k, IsReal (p k)) (hq : IsReal q) :
    ∑ k, a k * (p k * q) = (∑ k, a k * p k) * q := by
  choose a' ha using ha
  choose p' hp using hp
  obtain ⟨q', rfl⟩ := hq
  simp only [ha, hp, ← EReal.coe_mul, ← coe_sum]
  congr 1
  rw [Finset.sum_mul]
  exact Finset.sum_congr rfl fun k _ => by ring

/-- A vector of reals with a nonzero entry has a positive real Euclidean norm, `√(0 + ∑ p k · p k)`, so each entry divided by
    the norm is again a real. (With every entry zero the quotient would be `0 / 0`, which is no number.) -/
theorem isReal_div_norm {K : Type} [Fintype K] (p : K → EReal) (hp : ∀ k, IsReal (p k)) (hne : ∃ k, p k ≠ 0) (d : K) :
    IsReal (Ideal.div (p d) (Ideal.sqrt (0 + ∑ k, p k * p k))) := by
  choose p' hp using hp
  obtain ⟨k0, hk0⟩ := hne
  have hk0' : p' k0 ≠ 0 := fun h => hk0 (by rw [hp, h, EReal.coe_zero])
  have hpos : 0 < ∑ k, p' k * p' k :=
    lt_of_lt_of_le (mul_self_pos.2 hk0')
      (Finset.single_le_sum (f := fun k => p' k * p' k) (fun k _ => mul_self_nonneg _) (Finset.mem_univ k0))
  have hs : (0 : EReal) + ∑ k, p k * p k = ((∑ k, p' k * p' k : ℝ) : EReal) := by
    simp only [hp, ← EReal.coe_mul, ← coe_sum, zero_add]
  rw [hs, Ideal.sqrt_coe, if_neg (not_lt.2 (le_of_lt hpos)), Ideal.div_coe (Real.sqrt_ne_zero'.2 hpos), hp, ← EReal.coe_mul]
  exact ⟨_, rfl⟩

end Cert.Rank1

end
-- ==== Proof.KernelValue.lean ====
/-
  The kernel's two result arrays, read off its run.

  The grid has 64 points; point `t` works on rows 128·t … 128·t + 127 of the two matrices, with both unit rows whole, and writes
  rows 128·t … 128·t + 127 of each result. What it writes is the body's value of those blocks, which at row `p`, lane `q` of the
  block is the projection's value at row 128·t + p, lane `q` of the arrays. The 64 blocks cover each result array, so after
  the run each array is the projection's function of the arrays the region was entered with; the program's last two
  operations then insert a unit axis.
-/
import proofs.«160668_j85813446574645_2_alg».proof.Proof.Gen.KernelIdeal.Frame
import proofs.«160668_j85813446574645_2_alg».proof.Proof.KernelPayload
import proofs.«160668_j85813446574645_2_alg».proof.Proof.Rank1
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Rank1
open Idealize.ShloMosaic.Pipeline (Dat)

/-! ## One block -/

/-- If a 128-row block of each matrix holds rows 128·t … of an array, and the two row blocks hold two [1, 4096] arrays, then the
    body's first result at an element of the block is the projection's real part at the matching element of the arrays. -/
theorem block_re (x0 x1 : Vec Ideal S128x4096 .f32) (x2 x3 : Vec Ideal S1x4096 .f32)
    (A0 A1 : (⟨2, ![8192, 4096]⟩ : Shape).Idx → EReal) (R2 R3 : (⟨2, ![1, 4096]⟩ : Shape).Idx → EReal) (t : ℕ)
    (h0 : ∀ (p : Fin 128) (k : Fin 4096) (b : Fin 8192), b.val = t * 128 + p.val → x0 (ix2 p k) = A0 (ix2 b k))
    (h1 : ∀ (p : Fin 128) (k : Fin 4096) (b : Fin 8192), b.val = t * 128 + p.val → x1 (ix2 p k) = A1 (ix2 b k))
    (h2 : ∀ k : Fin 4096, x2 (ix2 (0 : Fin 1) k) = R2 (ix2 (0 : Fin 1) k))
    (h3 : ∀ k : Fin 4096, x3 (ix2 (0 : Fin 1) k) = R3 (ix2 (0 : Fin 1) k))
    (j : S128x4096.Idx) (e : (⟨2, ![8192, 4096]⟩ : Shape).Idx) (he0 : (e 0).val = t * 128 + (j 0).val) (he1 : (e 1).val = (j 1).val) :
    k0_pay3 x0 x1 x2 x3 j = arrRe A0 A1 R2 R3 e := by
  obtain ⟨p, q, rfl⟩ : ∃ (p : Fin 128) (q : Fin 4096), j = ix2 p q := ⟨j 0, j 1, eq_ix2 j⟩
  obtain ⟨b, d, rfl⟩ : ∃ (b : Fin 8192) (d : Fin 4096), e = ix2 b d := ⟨e 0, e 1, eq_ix2 e⟩
  have hd : d = q := Fin.ext he1
  subst hd
  rw [Payload.pay3_apply]
  show _ = outRe _ _ _ _ b d
  unfold outRe
  simp only [fun k => h0 p k b he0, fun k => h1 p k b he0, h2, h3]

/-- The same for the body's second result and the projection's imaginary part. -/
theorem block_im (x0 x1 : Vec Ideal S128x4096 .f32) (x2 x3 : Vec Ideal S1x4096 .f32)
    (A0 A1 : (⟨2, ![8192, 4096]⟩ : Shape).Idx → EReal) (R2 R3 : (⟨2, ![1, 4096]⟩ : Shape).Idx → EReal) (t : ℕ)
    (h0 : ∀ (p : Fin 128) (k : Fin 4096) (b : Fin 8192), b.val = t * 128 + p.val → x0 (ix2 p k) = A0 (ix2 b k))
    (h1 : ∀ (p : Fin 128) (k : Fin 4096) (b : Fin 8192), b.val = t * 128 + p.val → x1 (ix2 p k) = A1 (ix2 b k))
    (h2 : ∀ k : Fin 4096, x2 (ix2 (0 : Fin 1) k) = R2 (ix2 (0 : Fin 1) k))
    (h3 : ∀ k : Fin 4096, x3 (ix2 (0 : Fin 1) k) = R3 (ix2 (0 : Fin 1) k))
    (j : S128x4096.Idx) (e : (⟨2, ![8192, 4096]⟩ : Shape).Idx) (he0 : (e 0).val = t * 128 + (j 0).val) (he1 : (e 1).val = (j 1).val) :
    k0_pay4 x0 x1 x2 x3 j = arrIm A0 A1 R2 R3 e := by
  obtain ⟨p, q, rfl⟩ : ∃ (p : Fin 128) (q : Fin 4096), j = ix2 p q := ⟨j 0, j 1, eq_ix2 j⟩
  obtain ⟨b, d, rfl⟩ : ∃ (b : Fin 8192) (d : Fin 4096), e = ix2 b d := ⟨e 0, e 1, eq_ix2 e⟩
  have hd : d = q := Fin.ext he1
  subst hd
  rw [Payload.pay4_apply]
  show _ = outIm _ _ _ _ b d
  unfold outIm
  simp only [fun k => h0 p k b he0, fun k => h1 p k b he0, h2, h3]

variable (m : (ℓ : Loc nD τ sig) → Buf (Elt Ideal) ℓ) (ρ : Dev nD → PrngReg)

/-! ## The grid -/

theorem hz : (![0, 0] : Fin 2 → Nat) = fun _ => 0 := funext fun a => by fin_cases a <;> rfl

/-- The six windows' block indices at grid point `t`, decided over the 64 points: the matrix and result windows are at block row
    `t`, block column 0; the two row windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The real part's array as the projection of the arrays the region is entered with. -/
abbrev G4 (c : Dev nD) : S8192x4096.Idx → EReal :=
  arrRe (V m c main_arg0) (V m c main_arg1) (V m c main_v12) (V m c main_v13)

/-- The imaginary part's. -/
abbrev G5 (c : Dev nD) : S8192x4096.Idx → EReal :=
  arrIm (V m c main_arg0) (V m c main_arg1) (V m c main_v12) (V m c main_v13)

/-- What point `t` writes back to the first result is block `t` of the real part. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz]
  simp only [View.ld_unit_zero (S := S128x4096) hz, View.ld_unit_zero (S := S1x4096) hz]
  obtain ⟨a00, a01, a10, a11, a20, a21, a30, a31, a40, a41, a50, a51⟩ := idx_facts t
  funext j
  show k0_pay3 (iblk m c 0 t) (iblk m c 1 t) (iblk m c 2 t) (iblk m c 3 t) j = G4 m c (((cfg0.win 4).blk t).view.emb j)
  refine block_re _ _ _ _ _ _ _ _ t.val ?_ ?_ ?_ ?_ j _ ?_ ?_
  · intro p k b hb
    show V m c main_arg0 (((cfg0.win 0).blk t).view.emb (ix2 p k)) = V m c main_arg0 (ix2 b k)
    refine congrArg _ (funext fun a => Fin.ext ?_)
    match a with
    | ⟨0, _⟩ => show win0_0.index t (0 : Fin 2) * 128 + 1 * p.val = b.val; omega
    | ⟨1, _⟩ => show win0_0.index t (1 : Fin 2) * 4096 + 1 * k.val = k.val; omega
  · intro p k b hb
    show V m c main_arg1 (((cfg0.win 1).blk t).view.emb (ix2 p k)) = V m c main_arg1 (ix2 b k)
    refine congrArg _ (funext fun a => Fin.ext ?_)
    match a with
    | ⟨0, _⟩ => show win0_1.index t (0 : Fin 2) * 128 + 1 * p.val = b.val; omega
    | ⟨1, _⟩ => show win0_1.index t (1 : Fin 2) * 4096 + 1 * k.val = k.val; omega
  · intro k
    show V m c main_v12 (((cfg0.win 2).blk t).view.emb (ix2 (0 : Fin 1) k)) = V m c main_v12 (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 4096 + 1 * k.val = k.val; omega
  · intro k
    show V m c main_v13 (((cfg0.win 3).blk t).view.emb (ix2 (0 : Fin 1) k)) = V m c main_v13 (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 4096 + 1 * k.val = k.val; omega
  · show win0_4.index t (0 : Fin 2) * 128 + 1 * (j 0).val = t.val * 128 + (j 0).val; omega
  · show win0_4.index t (1 : Fin 2) * 4096 + 1 * (j 1).val = (j 1).val; omega

/-- What point `t` writes back to the second result is block `t` of the imaginary part. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz]
  simp only [View.ld_unit_zero (S := S128x4096) hz, View.ld_unit_zero (S := S1x4096) hz]
  obtain ⟨a00, a01, a10, a11, a20, a21, a30, a31, a40, a41, a50, a51⟩ := idx_facts t
  funext j
  show k0_pay4 (iblk m c 0 t) (iblk m c 1 t) (iblk m c 2 t) (iblk m c 3 t) j = G5 m c (((cfg0.win 5).blk t).view.emb j)
  refine block_im _ _ _ _ _ _ _ _ t.val ?_ ?_ ?_ ?_ j _ ?_ ?_
  · intro p k b hb
    show V m c main_arg0 (((cfg0.win 0).blk t).view.emb (ix2 p k)) = V m c main_arg0 (ix2 b k)
    refine congrArg _ (funext fun a => Fin.ext ?_)
    match a with
    | ⟨0, _⟩ => show win0_0.index t (0 : Fin 2) * 128 + 1 * p.val = b.val; omega
    | ⟨1, _⟩ => show win0_0.index t (1 : Fin 2) * 4096 + 1 * k.val = k.val; omega
  · intro p k b hb
    show V m c main_arg1 (((cfg0.win 1).blk t).view.emb (ix2 p k)) = V m c main_arg1 (ix2 b k)
    refine congrArg _ (funext fun a => Fin.ext ?_)
    match a with
    | ⟨0, _⟩ => show win0_1.index t (0 : Fin 2) * 128 + 1 * p.val = b.val; omega
    | ⟨1, _⟩ => show win0_1.index t (1 : Fin 2) * 4096 + 1 * k.val = k.val; omega
  · intro k
    show V m c main_v12 (((cfg0.win 2).blk t).view.emb (ix2 (0 : Fin 1) k)) = V m c main_v12 (ix2 (0 : Fin 1) k)
    refine congrArg _ (funext fun a => Fin.ext ?_)
    match a with
    | ⟨0, _⟩ => show win0_2.index t (0 : Fin 2) * 1 + 1 * 0 = 0; omega
    | ⟨1, _⟩ => show win0_2.index t (1 : Fin 2) * 4096 + 1 * k.val = k.val; omega
  · intro k
    show V m c main_v13 (((cfg0.win 3).blk t).view.emb (ix2 (0 : Fin 1) k)) = V m c main_v13 (ix2 (0 : Fin 1) k)
    refine congrArg _ (funext fun a => Fin.ext ?_)
    match a with
    | ⟨0, _⟩ => show win0_3.index t (0 : Fin 2) * 1 + 1 * 0 = 0; omega
    | ⟨1, _⟩ => show win0_3.index t (1 : Fin 2) * 4096 + 1 * k.val = k.val; omega
  · show win0_5.index t (0 : Fin 2) * 128 + 1 * (j 0).val = t.val * 128 + (j 0).val; omega
  · show win0_5.index t (1 : Fin 2) * 4096 + 1 * (j 1).val = (j 1).val; omega

/-! ## The blocks cover each result -/

/-- An index of the first result is in point `t`'s block iff each coordinate is in the block's range on its axis. -/
theorem mem_blk4 (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v14_0).slice (win0_4.rect t)).set ↔ _
  rw [View.set_slice_whole, Rect.mem_set_unit]
  exact Iff.rfl

theorem mem_blk5 (t : Fin cfg0.N) (i : S8192x4096.Idx) :
    i ∈ ((cfg0.win 5).blk t).view.set ↔ ∀ a : Fin 2, win0_5.index t a * S128x4096.size a ≤ (i a).val ∧ (i a).val < win0_5.index t a * S128x4096.size a + S128x4096.size a := by
  show i ∈ ((View.whole main_v14_1).slice (win0_5.rect t)).set ↔ _
  rw [View.set_slice_whole, Rect.mem_set_unit]
  exact Iff.rfl

/-- Row `r` of the first result is in the block of point `r / 128`. -/
theorem cover4 (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : grid0.N = 64 := N_0
  have ht : (i 0).val / 128 < cfg0.N := by show (i 0).val / 128 < grid0.N; omega
  obtain ⟨a00, a01, a10, a11, a20, a21, a30, a31, a40, a41, a50, a51⟩ := idx_facts ⟨(i 0).val / 128, ht⟩
  refine ⟨⟨(i 0).val / 128, ht⟩, flush0_4 _, ?_⟩
  rw [mem_blk4]
  intro a
  match a with
  | ⟨0, _⟩ =>
    show win0_4.index ⟨(i 0).val / 128, ht⟩ (0 : Fin 2) * 128 ≤ (i 0).val ∧ (i 0).val < win0_4.index ⟨(i 0).val / 128, ht⟩ (0 : Fin 2) * 128 + 128
    rw [a40]
    show (i 0).val / 128 * 128 ≤ (i 0).val ∧ (i 0).val < (i 0).val / 128 * 128 + 128
    omega
  | ⟨1, _⟩ =>
    show win0_4.index ⟨(i 0).val / 128, ht⟩ (1 : Fin 2) * 4096 ≤ (i 1).val ∧ (i 1).val < win0_4.index ⟨(i 0).val / 128, ht⟩ (1 : Fin 2) * 4096 + 4096
    rw [a41]
    omega

theorem cover5 (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : grid0.N = 64 := N_0
  have ht : (i 0).val / 128 < cfg0.N := by show (i 0).val / 128 < grid0.N; omega
  obtain ⟨a00, a01, a10, a11, a20, a21, a30, a31, a40, a41, a50, a51⟩ := idx_facts ⟨(i 0).val / 128, ht⟩
  refine ⟨⟨(i 0).val / 128, ht⟩, flush0_5 _, ?_⟩
  rw [mem_blk5]
  intro a
  match a with
  | ⟨0, _⟩ =>
    show win0_5.index ⟨(i 0).val / 128, ht⟩ (0 : Fin 2) * 128 ≤ (i 0).val ∧ (i 0).val < win0_5.index ⟨(i 0).val / 128, ht⟩ (0 : Fin 2) * 128 + 128
    rw [a50]
    show (i 0).val / 128 * 128 ≤ (i 0).val ∧ (i 0).val < (i 0).val / 128 * 128 + 128
    omega
  | ⟨1, _⟩ =>
    show win0_5.index ⟨(i 0).val / 128, ht⟩ (1 : Fin 2) * 4096 ≤ (i 1).val ∧ (i 1).val < win0_5.index ⟨(i 0).val / 128, ht⟩ (1 : Fin 2) * 4096 + 4096
    rw [a51]
    omega

/-- After the region the first result's array is the real part. -/
theorem final4 (c : Dev nD) : (dats m 0 c).arrAt 4 cfg0.N = G4 m c :=
  (dats m 0 c).arrAt_eq_of_cover 4 (G4 m c) (fun t _ => flushed4_eq m c t) cover4

/-- And the second result's array is the imaginary part. -/
theorem final5 (c : Dev nD) : (dats m 0 c).arrAt 5 cfg0.N = G5 m c :=
  (dats m 0 c).arrAt_eq_of_cover 5 (G5 m c) (fun t _ => flushed5_eq m c t) cover5

/-! ## The two operations after the region, and the run -/

/-- The program's first result: the real part's array with a unit axis inserted. -/
theorem tail15 (c : Dev nD) :
    Pipeline.afterTail₀ cfgs (dats m) 0 (V0 m) [hostOps1] c main_v15
      = broadcastInDim S8192x1x4096 ![0, 2] bcast_S8192x4096_S8192x1x4096_0_2 (G4 m c) := by
  unfold Pipeline.afterTail₀
  show StableHlo.after hostOps1 _ (Proc.devRef .tc main_v15) = _
  after_results
  exact congrArg _ ((Pipeline.withArrays_arr spec0 launch0.win.arr_inj c _ _ 4).trans (final4 m c))

/-- The program's second result: the imaginary part's array with a unit axis inserted. -/
theorem tail16 (c : Dev nD) :
    Pipeline.afterTail₀ cfgs (dats m) 0 (V0 m) [hostOps1] c main_v16
      = broadcastInDim S8192x1x4096 ![0, 2] bcast_S8192x4096_S8192x1x4096_0_2 (G5 m c) := by
  unfold Pipeline.afterTail₀
  show StableHlo.after hostOps1 _ (Proc.devRef .tc main_v16) = _
  after_results
  exact congrArg _ ((Pipeline.withArrays_arr spec0 launch0.win.arr_inj c _ _ 5).trans (final5 m c))

/-- The run: every weakly fair execution terminates with the two results at the projection's two parts (a unit axis inserted) of
    the arrays the region was entered with, and the three arguments unchanged. -/
theorem run : θ_run defs (onTc (τ := τ) (main (F := Ideal))) ⟨m, fun _ => 0, ρ⟩ fun r => ∀ c : Dev nD,
      r.2.mem ((c.tc : Thread nD τ).loc main_v15) = broadcastInDim S8192x1x4096 ![0, 2] bcast_S8192x4096_S8192x1x4096_0_2 (G4 m c)
      ∧ r.2.mem ((c.tc : Thread nD τ).loc main_v16) = broadcastInDim S8192x1x4096 ![0, 2] bcast_S8192x4096_S8192x1x4096_0_2 (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (tail15 m c),
      ((h c).2 main_v16 (Pipeline.mem_restRefs_of main_v16 (by decide) (by decide))).trans (tail16 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference's two results as the rank-one projection's two functions.

  The reference divides each projector column by its Euclidean norm, forms the rank-one matrix `P k d = r k · r d` of each
  normalised column `r` (a product over a contracted axis of length one), multiplies the two matrices of the input by the two
  rank-one matrices, and combines: `vr P_r − vi P_i` and `vr P_i + vi P_r`. Each product `∑ k, v b k · (r k · r d)` is
  `(∑ k, v b k · r k) · r d`, because every factor is a real number: the inputs by the precondition, the normalised entries
  because each column has a nonzero entry, hence a positive norm.
-/
import proofs.«160668_j85813446574645_2_alg».proof.Proof.Gen.ReferenceIdeal.Read
import proofs.«160668_j85813446574645_2_alg».proof.Proof.Rank1

noncomputable section

namespace Cert.ReferenceIdeal.RefValue

open Cert.ReferenceIdeal Cert.ReferenceIdeal.Gen Cert.ReferenceIdeal.Read Idealize.ShloMosaic Idealize.ShloMosaic.ValueIdx Cert.Rank1

/-- The projector argument's contents: a [2, 4096, 1] array of extended reals. -/
abbrev Proj : Type := (⟨S2x4096x1, .f32⟩ : BufTy).Contents (Elt Ideal)
/-- A matrix argument's contents: an [8192, 4096] array of extended reals. -/
abbrev Mat : Type := (⟨S8192x4096, .f32⟩ : BufTy).Contents (Elt Ideal)

/-! ## The two columns and their norms -/

/-- Column 0 of the projector, viewed as [4096, 1]: its row `k` is the argument's entry (0, k, 0). -/
theorem col0_at (x2 : Proj) (j : S4096x1.Idx) (k : Fin 4096) (hk : (j 0).val = k.val) :
    val_main_v1 (F := Ideal) x2 j = x2 (ix3 (0 : Fin 2) k (0 : Fin 1)) := by
  rw [val_main_v1_apply, val_main_v0_apply]
  refine congrArg x2 (funext fun a => Fin.ext ?_)
  have h1 : (j 1).val < 1 := (j 1).isLt
  have hk4 : k.val < 4096 := k.isLt
  match a with
  | ⟨0, _⟩ => rfl
  | ⟨1, _⟩ => show ((j 0).val * 1 + (j 1).val) / 1 % 4096 = k.val; omega
  | ⟨2, _⟩ => rfl

/-- Column 1 likewise: its row `k` is the argument's entry (1, k, 0). -/
theorem col1_at (x2 : Proj) (j : S4096x1.Idx) (k : Fin 4096) (hk : (j 0).val = k.val) :
    val_main_v3 (F := Ideal) x2 j = x2 (ix3 (1 : Fin 2) k (0 : Fin 1)) := by
  rw [val_main_v3_apply, val_main_v2_apply]
  refine congrArg x2 (funext fun a => Fin.ext ?_)
  have h1 : (j 1).val < 1 := (j 1).isLt
  have hk4 : k.val < 4096 := k.isLt
  match a with
  | ⟨0, _⟩ => rfl
  | ⟨1, _⟩ => show ((j 0).val * 1 + (j 1).val) / 1 % 4096 = k.val; omega
  | ⟨2, _⟩ => rfl

/-- The sum of squares of column 0, as the host sums it: from zero, over the 4096 rows. -/
theorem sumsq0 (x2 : Proj) (i : S1.Idx) :
    val_main_call0_v1 (F := Ideal) x2 i
      = 0 + ∑ k : Fin 4096, x2 (ix3 (0 : Fin 2) k (0 : Fin 1)) * x2 (ix3 (0 : Fin 2) k (0 : Fin 1)) := by
  rw [val_main_call0_v1_apply]
  refine congrArg₂ (fun a b : EReal => a + b) ?_ (Finset.sum_congr rfl fun k _ => ?_)
  · exact Ideal.ofBits_zero_f32
  · rw [val_main_call0_v0_apply, Ideal.mulf_def, col0_at x2 (idx_main_call0_v1 i k) k rfl]

/-- The sum of squares of column 1. -/
theorem sumsq1 (x2 : Proj) (i : S1.Idx) :
    val_main_call1_v1 (F := Ideal) x2 i
      = 0 + ∑ k : Fin 4096, x2 (ix3 (1 : Fin 2) k (0 : Fin 1)) * x2 (ix3 (1 : Fin 2) k (0 : Fin 1)) := by
  rw [val_main_call1_v1_apply]
  refine congrArg₂ (fun a b : EReal => a + b) ?_ (Finset.sum_congr rfl fun k _ => ?_)
  · exact Ideal.ofBits_zero_f32
  · rw [val_main_call1_v0_apply, Ideal.mulf_def, col1_at x2 (idx_main_call1_v1 i k) k rfl]

/-- The first unit row at `d`: the column's entry `d` over the column's norm. -/
theorem row0_apply (x2 : Proj) (d : Fin 4096) :
    val_main_v12 (F := Ideal) x2 (ix2 (0 : Fin 1) d)
      = Ideal.div (x2 (ix3 (0 : Fin 2) d (0 : Fin 1)))
          (Ideal.sqrt (0 + ∑ k : Fin 4096, x2 (ix3 (0 : Fin 2) k (0 : Fin 1)) * x2 (ix3 (0 : Fin 2) k (0 : Fin 1)))) := by
  rw [val_main_v12_apply, val_main_v7_apply, Ideal.hostDivf_def, col0_at x2 (idx_main_v12 (ix2 (0 : Fin 1) d)) d rfl,
    val_main_v6_apply, val_main_v5_apply, val_main_v4_apply, Ideal.hostUnary_sqrt_def, sumsq0]

/-- The second unit row at `d`. -/
theorem row1_apply (x2 : Proj) (d : Fin 4096) :
    val_main_v14 (F := Ideal) x2 (ix2 (0 : Fin 1) d)
      = Ideal.div (x2 (ix3 (1 : Fin 2) d (0 : Fin 1)))
          (Ideal.sqrt (0 + ∑ k : Fin 4096, x2 (ix3 (1 : Fin 2) k (0 : Fin 1)) * x2 (ix3 (1 : Fin 2) k (0 : Fin 1)))) := by
  rw [val_main_v14_apply, val_main_v11_apply, Ideal.hostDivf_def, col1_at x2 (idx_main_v14 (ix2 (0 : Fin 1) d)) d rfl,
    val_main_v10_apply, val_main_v9_apply, val_main_v8_apply, Ideal.hostUnary_sqrt_def, sumsq1]

/-- With real entries, one of them nonzero, the first unit row is real. -/
theorem row0_real (x2 : Proj) (hx2 : ∀ i, IsReal (x2 i)) (hne : ∃ k : Fin 4096, x2 (ix3 (0 : Fin 2) k (0 : Fin 1)) ≠ 0)
    (d : Fin 4096) : IsReal (val_main_v12 (F := Ideal) x2 (ix2 (0 : Fin 1) d)) := by
  rw [row0_apply]
  exact isReal_div_norm (fun k => x2 (ix3 (0 : Fin 2) k (0 : Fin 1))) (fun k => hx2 _) hne d

/-- And the second. -/
theorem row1_real (x2 : Proj) (hx2 : ∀ i, IsReal (x2 i)) (hne : ∃ k : Fin 4096, x2 (ix3 (1 : Fin 2) k (0 : Fin 1)) ≠ 0)
    (d : Fin 4096) : IsReal (val_main_v14 (F := Ideal) x2 (ix2 (0 : Fin 1) d)) := by
  rw [row1_apply]
  exact isReal_div_norm (fun k => x2 (ix3 (1 : Fin 2) k (0 : Fin 1))) (fun k => hx2 _) hne d

/-! ## The two rank-one matrices -/

/-- `P_r k d = r k · r d`: the column [4096, 1] times its transpose [1, 4096], one term in the contraction. -/
theorem mat0_apply (x2 : Proj) (k d : Fin 4096) :
    val_main_v13 (F := Ideal) x2 (ix2 k d)
      = val_main_v12 (F := Ideal) x2 (ix2 (0 : Fin 1) k) * val_main_v12 (F := Ideal) x2 (ix2 (0 : Fin 1) d) := by
  rw [val_main_v13_apply, Fin.sum_univ_one, val_main_v12_apply x2 (ix2 (0 : Fin 1) k)]
  refine congrArg₂ (fun a b : EReal => a * b) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

/-- `P_i k d = s k · s d` for the second column. -/
theorem mat1_apply (x2 : Proj) (k d : Fin 4096) :
    val_main_v15 (F := Ideal) x2 (ix2 k d)
      = val_main_v14 (F := Ideal) x2 (ix2 (0 : Fin 1) k) * val_main_v14 (F := Ideal) x2 (ix2 (0 : Fin 1) d) := by
  rw [val_main_v15_apply, Fin.sum_univ_one, val_main_v14_apply x2 (ix2 (0 : Fin 1) k)]
  refine congrArg₂ (fun a b : EReal => a * b) (congrArg _ (funext fun a => Fin.ext ?_)) (congrArg _ (funext fun a => Fin.ext ?_))
  · match a with
    | ⟨0, _⟩ => rfl
    | ⟨1, _⟩ => rfl
  · match a with
    | ⟨0, _⟩ => rfl
    | ⟨1, _⟩ => rfl

/-! ## A matrix times a rank-one matrix -/

/-- Row `b` of a real matrix against column `d` of the rank-one matrix of a real vector `r` is the row's coefficient against `r`,
    times `r d`. -/
theorem proj_sum (x : Mat) (M : (⟨S4096x4096, .f32⟩ : BufTy).Contents (Elt Ideal)) (r : Fin 4096 → EReal)
    (hM : ∀ k d, M (ix2 k d) = r k * r d) (hx : ∀ i, IsReal (x i)) (hr : ∀ k, IsReal (r k)) (b : Fin 8192) (d : Fin 4096)
    (li : Fin 4096 → S8192x4096.Idx) (ri : Fin 4096 → S4096x4096.Idx) (hl : ∀ k, li k = ix2 b k) (hri : ∀ k, ri k = ix2 k d) :
    ∑ k, x (li k) * M (ri k) = (∑ k, x (ix2 b k) * r k) * r d := by
  simp only [hl, hri, hM]
  exact sum_mul_mul_of_real (fun k => x (ix2 b k)) r (r d) (fun k => hx _) hr (hr d)

theorem lidx_eq (b : Fin 8192) (d k : Fin 4096) (f : S8192x4096.Idx)
    (h0 : (f 0).val = b.val) (h1 : (f 1).val = k.val) : f = ix2 b k :=
  funext fun a => Fin.ext (by
    match a with
    | ⟨0, _⟩ => exact h0
    | ⟨1, _⟩ => exact h1)

theorem ridx_eq (d k : Fin 4096) (f : S4096x4096.Idx)
    (h0 : (f 0).val = k.val) (h1 : (f 1).val = d.val) : f = ix2 k d :=
  funext fun a => Fin.ext (by
    match a with
    | ⟨0, _⟩ => exact h0
    | ⟨1, _⟩ => exact h1)

variable (x0 x1 : Mat) (x2 : Proj)
variable (hx0 : ∀ i, IsReal (x0 i)) (hx1 : ∀ i, IsReal (x1 i))
variable (hr0 : ∀ k : Fin 4096, IsReal (val_main_v12 (F := Ideal) x2 (ix2 (0 : Fin 1) k)))
variable (hr1 : ∀ k : Fin 4096, IsReal (val_main_v14 (F := Ideal) x2 (ix2 (0 : Fin 1) k)))

include hx0 hr0 in
theorem v16_at (b : Fin 8192) (d : Fin 4096) :
    val_main_v16 (F := Ideal) x0 x2 (ix2 b d)
      = (∑ k : Fin 4096, x0 (ix2 b k) * val_main_v12 (F := Ideal) x2 (ix2 (0 : Fin 1) k)) * val_main_v12 (F := Ideal) x2 (ix2 (0 : Fin 1) d) := by
  rw [val_main_v16_apply]
  exact proj_sum x0 (val_main_v13 (F := Ideal) x2) (fun k => val_main_v12 (F := Ideal) x2 (ix2 (0 : Fin 1) k)) (mat0_apply x2) hx0 hr0 b d _ _
    (fun k => lidx_eq b d k _ rfl rfl) (fun k => ridx_eq d k _ rfl rfl)

include hx1 hr1 in
theorem v17_at (b : Fin 8192) (d : Fin 4096) :
    val_main_v17 (F := Ideal) x1 x2 (ix2 b d)
      = (∑ k : Fin 4096, x1 (ix2 b k) * val_main_v14 (F := Ideal) x2 (ix2 (0 : Fin 1) k)) * val_main_v14 (F := Ideal) x2 (ix2 (0 : Fin 1) d) := by
  rw [val_main_v17_apply]
  exact proj_sum x1 (val_main_v15 (F := Ideal) x2) (fun k => val_main_v14 (F := Ideal) x2 (ix2 (0 : Fin 1) k)) (mat1_apply x2) hx1 hr1 b d _ _
    (fun k => lidx_eq b d k _ rfl rfl) (fun k => ridx_eq d k _ rfl rfl)

include hx0 hr1 in
theorem v19_at (b : Fin 8192) (d : Fin 4096) :
    val_main_v19 (F := Ideal) x0 x2 (ix2 b d)
      = (∑ k : Fin 4096, x0 (ix2 b k) * val_main_v14 (F := Ideal) x2 (ix2 (0 : Fin 1) k)) * val_main_v14 (F := Ideal) x2 (ix2 (0 : Fin 1) d) := by
  rw [val_main_v19_apply]
  exact proj_sum x0 (val_main_v15 (F := Ideal) x2) (fun k => val_main_v14 (F := Ideal) x2 (ix2 (0 : Fin 1) k)) (mat1_apply x2) hx0 hr1 b d _ _
    (fun k => lidx_eq b d k _ rfl rfl) (fun k => ridx_eq d k _ rfl rfl)

include hx1 hr0 in
theorem v20_at (b : Fin 8192) (d : Fin 4096) :
    val_main_v20 (F := Ideal) x1 x2 (ix2 b d)
      = (∑ k : Fin 4096, x1 (ix2 b k) * val_main_v12 (F := Ideal) x2 (ix2 (0 : Fin 1) k)) * val_main_v12 (F := Ideal) x2 (ix2 (0 : Fin 1) d) := by
  rw [val_main_v20_apply]
  exact proj_sum x1 (val_main_v13 (F := Ideal) x2) (fun k => val_main_v12 (F := Ideal) x2 (ix2 (0 : Fin 1) k)) (mat0_apply x2) hx1 hr0 b d _ _
    (fun k => lidx_eq b d k _ rfl rfl) (fun k => ridx_eq d k _ rfl rfl)

/-! ## The two results -/

include hx0 hx1 hr0 hr1 in
/-- The reference's real part, before its last reshaping, is the projection's real part of the two matrices and the two unit rows. -/
theorem re_eq : val_main_v18 (F := Ideal) x0 x1 x2 = arrRe x0 x1 (val_main_v12 (F := Ideal) x2) (val_main_v14 (F := Ideal) x2) := by
  funext i
  obtain ⟨b, d, rfl⟩ : ∃ (b : Fin 8192) (d : Fin 4096), i = ix2 b d := ⟨i 0, i 1, eq_ix2 i⟩
  rw [val_main_v18_apply, Ideal.subf_def, v16_at x0 x2 hx0 hr0, v17_at x1 x2 hx1 hr1]
  rfl

include hx0 hx1 hr0 hr1 in
/-- The reference's imaginary part, before its last reshaping. -/
theorem im_eq : val_main_v21 (F := Ideal) x0 x1 x2 = arrIm x0 x1 (val_main_v12 (F := Ideal) x2) (val_main_v14 (F := Ideal) x2) := by
  funext i
  obtain ⟨b, d, rfl⟩ : ∃ (b : Fin 8192) (d : Fin 4096), i = ix2 b d := ⟨i 0, i 1, eq_ix2 i⟩
  rw [val_main_v21_apply, Ideal.addf_def, v19_at x0 x2 hx0 hr1, v20_at x1 x2 hx1 hr0]
  rfl

end Cert.ReferenceIdeal.RefValue

end
-- ==== Proof.LibReduceAny.lean ====
/-
  A printed predicate's `jnp.any`, read back. `jnp.any(p)` prints as a one-operand reduce of the `i1` array `p` by `or` from the
  constant 0. If the result is 1 then some element of `p` that reduces into it is 1: an `or` of zeros is zero.
-/
import Idealize.ShloMosaic.Lib.Affine
import Idealize.ShloMosaic.PureOps.Reduce

namespace Idealize.ShloMosaic

namespace IntOp

/-- A left fold by `or` over `i1` words that came out 1 either started at 1 or met a 1. -/
theorem foldl_ori_eq_one {ι : Type} (f : ι → BitVec 1) :
    ∀ (l : List ι) (init : BitVec 1), l.foldl (fun r n => ori r (f n)) init = 1#1 → init = 1#1 ∨ ∃ n ∈ l, f n = 1#1
  | [], _, h => Or.inl h
  | a :: l, init, h => by
    rcases foldl_ori_eq_one f l _ h with h1 | ⟨n, hn, hf⟩
    · rcases ori_eq_one.1 h1 with hi | ha
      · exact Or.inl hi
      · exact Or.inr ⟨a, List.mem_cons_self, ha⟩
    · exact Or.inr ⟨n, List.mem_cons_of_mem _ hn, hf⟩

end IntOp

namespace Host

variable {s t u : Shape} {axes : List (Fin s.rank)}

/-- `jnp.any`: a reduce by `or`, from an initial value that is 0, which is 1 at `j` had a 1 at some operand index. -/
theorem reduce_ori_any (x : s.Idx → BitVec 1) (init : u.Idx → BitVec 1) (h : s.ReducesTo axes t) (hu : 0 < u.numel)
    (hinit : ∀ k, init k = 0#1) (j : t.Idx) (e : Host.reduce IntOp.ori x init h hu j = 1#1) : ∃ i : s.Idx, x i = 1#1 := by
  rw [Host.reduce_eq_foldl] at e
  rcases IntOp.foldl_ori_eq_one x _ _ e with h0 | ⟨i, _, hi⟩
  · rw [hinit] at h0
    exact absurd h0 (by decide)
  · exact ⟨i, hi⟩

end Host

end Idealize.ShloMosaic
-- ==== Proof.PreDecode.lean ====
/-
  What the precondition says of the three argument arrays, read back on the extended reals.

  It is a conjunction of five scalars. Three are `all (|x| < +∞)`, one per argument: every entry is a real number.
  Two are `any (column ≠ 0)`, one per projector column (the [2, 4096, 1] argument sliced at its first axis and viewed as
  [4096, 1]): each column has a nonzero entry, so its Euclidean norm is not zero and dividing by it is meaningful.
-/
import proofs.«160668_j85813446574645_2_alg».proof.Pre_finite_inputs
import proofs.«160668_j85813446574645_2_alg».proof.Proof.Rank1
import proofs.«160668_j85813446574645_2_alg».proof.Proof.LibReduceAny
import Idealize.ShloMosaic.Lib.ReduceAll
import Idealize.ShloMosaic.Lib.ValueIdx
import Idealize.ShloMosaic.Lib.Pipeline.Value

noncomputable section

namespace Cert.Rank1.PreDecode

open Idealize.ShloMosaic Idealize.ShloMosaic.ValueIdx Cert.Pre_finite_inputs Cert.Rank1

/-- The scalar shape has one index. -/
instance : Subsingleton S_.Idx := ⟨fun a b => funext fun d => d.elim0⟩

/-- `|x| < +∞` on the extended reals says `x` is a real number: at either infinity `|x|` is `+∞`. -/
theorem isReal_of_abs_lt_inf (x : Ideal .f32)
    (h : FloatOps.cmpf (F := Ideal) .olt (FloatOps.hostAbsf x) (FloatOps.ofBits .f32 0x7F800000#32) = 1#1) : IsReal x := by
  have hinf : Ideal.ofBits .f32 0x7F800000#32 = ⊤ := by simp [Ideal.ofBits, Ideal.ieee]
  rw [Ideal.cmpf_def, Ideal.hostAbsf_def, Ideal.absf_def, Ideal.ofBits_def, hinf] at h
  unfold Ideal.cmp at h
  induction x using EReal.rec with
  | bot => simp at h
  | top => simp at h
  | coe r => exact ⟨r, rfl⟩

/-- `x ≠ 0` as a comparison that came out true. -/
theorem ne_zero_of_cmp (x : Ideal .f32)
    (h : FloatOps.cmpf (F := Ideal) .une x (FloatOps.ofBits .f32 0x00000000#32) = 1#1) : x ≠ 0 := by
  rw [Ideal.cmpf_def, Ideal.ofBits_def, Ideal.ofBits_zero_f32] at h
  unfold Ideal.cmp at h
  intro h0
  rw [h0] at h
  simp at h

/-- Column `c` of the [2, 4096, 1] argument, sliced out and viewed as [4096, 1], holds at row `k` the argument's entry (c, k, 0). -/
theorem column_apply {α : Type} (x2 : S2x4096x1.Idx → α) (c : Fin 2) (off : Fin 3 → Nat) (hoff : off = ![c.val, 0, 0])
    (hs : S2x4096x1.Slices off S1x4096x1) (hc : S1x4096x1.ShapeCasts S4096x1) (k : Fin 4096) (u : Fin 1) :
    shapeCast S4096x1 (extractStridedSlice S1x4096x1 off x2 hs) hc (ix2 k u) = x2 (ix3 c k (0 : Fin 1)) := by
  subst hoff
  refine (shapeCast_apply _ hc (ix2 k u) (ix3 (0 : Fin 1) k (0 : Fin 1)) ?_).trans
    (extractStridedSlice_apply _ x2 hs _ (ix3 c k (0 : Fin 1)) fun a => ?_)
  · rw [Shape.rowMajor_val_three, Shape.rowMajor_val_two]
    have hu : u.val = 0 := by omega
    show (0 * 4096 + k.val) * 1 + 0 = k.val * 1 + u.val
    omega
  · match a with
    | ⟨0, _⟩ => show c.val = c.val + 0; omega
    | ⟨1, _⟩ => show k.val = 0 + k.val; omega
    | ⟨2, _⟩ => show (0 : ℕ) = 0 + 0; rfl

variable [Cert.Pre_finite_inputs.Facts]

/-- The precondition, decoded: every entry of the three arguments is real, and each projector column has a nonzero entry. -/
theorem decode (x0 x1 : FVec Ideal S8192x4096 .f32) (x2 : FVec Ideal S2x4096x1 .f32)
    (h : fn (F := Ideal) x0 x1 x2 = fun _ => 1#1) :
    (∀ i, IsReal (x0 i)) ∧ (∀ i, IsReal (x1 i)) ∧ (∀ i, IsReal (x2 i))
      ∧ (∃ k : Fin 4096, x2 (ix3 (0 : Fin 2) k (0 : Fin 1)) ≠ 0) ∧ (∃ k : Fin 4096, x2 (ix3 (1 : Fin 2) k (0 : Fin 1)) ≠ 0) := by
  have e := congrFun h ix0
  dsimp only [fn, fn_part1] at e
  simp only [andi, IntOp.andi_eq_one] at e
  obtain ⟨⟨⟨⟨h0, h1⟩, h2⟩, h3⟩, h4⟩ := e
  refine ⟨fun i => ?_, fun i => ?_, fun i => ?_, ?_, ?_⟩
  · exact isReal_of_abs_lt_inf _ (Host.reduce_andi_all _ _ _ _ _ h0 i)
  · exact isReal_of_abs_lt_inf _ (Host.reduce_andi_all _ _ _ _ _ h1 i)
  · exact isReal_of_abs_lt_inf _ (Host.reduce_andi_all _ _ _ _ _ h2 i)
  · obtain ⟨i, hi⟩ := Host.reduce_ori_any _ _ _ _ (fun _ => rfl) _ h3
    obtain ⟨k, u, rfl⟩ : ∃ (k : Fin 4096) (u : Fin 1), i = ix2 k u := ⟨i 0, i 1, eq_ix2 i⟩
    refine ⟨k, ?_⟩
    rw [← column_apply x2 0 _ rfl Facts.slices_S2x4096x1_S1x4096x1_0_0_0 Facts.shapeCasts_S1x4096x1_S4096x1 k u]
    exact ne_zero_of_cmp _ hi
  · obtain ⟨i, hi⟩ := Host.reduce_ori_any _ _ _ _ (fun _ => rfl) _ h4
    obtain ⟨k, u, rfl⟩ : ∃ (k : Fin 4096) (u : Fin 1), i = ix2 k u := ⟨i 0, i 1, eq_ix2 i⟩
    refine ⟨k, ?_⟩
    rw [← column_apply x2 1 _ rfl Facts.slices_S2x4096x1_S1x4096x1_1_0_0 Facts.shapeCasts_S1x4096x1_S4096x1 k u]
    exact ne_zero_of_cmp _ hi

end Cert.Rank1.PreDecode

end
-- ==== Proof.Claims.lean ====
/-
  The claims.

  Both programs begin with the same host operations on the projector argument (slice a column, divide it by its Euclidean
  norm, lay it out as a [1, 4096] row), so the two rows the kernel's region is entered with are the reference's two unit rows.
  The kernel's results are then the projection's two parts of the argument matrices and those rows, with no condition (its
  own computation is already in that form); the reference's are the same two functions because, under the precondition,
  every number involved is real and a real factor moves across a finite sum.
-/
import proofs.«160668_j85813446574645_2_alg».proof.Defs
import proofs.«160668_j85813446574645_2_alg».proof.Proof.Gen.Kernel.Frame
import proofs.«160668_j85813446574645_2_alg».proof.Proof.Gen.KernelIdeal.Frame
import proofs.«160668_j85813446574645_2_alg».proof.Proof.Gen.ReferenceIdeal.Read
import proofs.«160668_j85813446574645_2_alg».proof.Proof.Gen.Pre_finite_inputs
import proofs.«160668_j85813446574645_2_alg».proof.Proof.KernelValue
import proofs.«160668_j85813446574645_2_alg».proof.Proof.RefValue
import proofs.«160668_j85813446574645_2_alg».proof.Proof.PreDecode

noncomputable section

namespace Cert.Proof.Claims

open Idealize.ShloMosaic Idealize.ShloMosaic.TcCoe Idealize.SL.Sem Idealize.ShloMosaic.ValueIdx Cert.Rank1

/-! ## The rows the region is entered with -/

section Rows

open Cert.KernelIdeal Cert.KernelIdeal.Gen

variable (m : (ℓ : Loc nD τ sig) → Buf (Elt Ideal) ℓ)

/-- The kernel's first row window holds the reference's first unit row of the projector argument. -/
theorem V_row0 (c : Dev nD) :
    (V m c main_v12 : S1x4096.Idx → EReal) = Cert.ReferenceIdeal.Read.val_main_v12 (F := Ideal) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

/-- The kernel's second row window holds the reference's second unit row. -/
theorem V_row1 (c : Dev nD) :
    (V m c main_v13 : S1x4096.Idx → EReal) = Cert.ReferenceIdeal.Read.val_main_v14 (F := Ideal) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

end Rows

/-! ## The five claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at the same function of the arguments: the projection's real and imaginary part of the two
    matrices and the projector's two unit rows, a unit axis inserted. -/
theorem algebraic : Cert.algebraic_KernelIdeal_ReferenceIdeal := by
  intro m ρ m' ρ' hpre hagree
  refine ⟨fun c => broadcastInDim Cert.KernelIdeal.S8192x1x4096 ![0, 2] Cert.KernelIdeal.Facts₀.bcast_S8192x4096_S8192x1x4096_0_2
      (arrRe (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (Cert.ReferenceIdeal.Read.val_main_v12 (F := Ideal) (m ((c.tc : Thread Cert.KernelIdeal.nD Cert.KernelIdeal.τ).loc Cert.KernelIdeal.main_arg2)))
        (Cert.ReferenceIdeal.Read.val_main_v14 (F := Ideal) (m ((c.tc : Thread Cert.KernelIdeal.nD Cert.KernelIdeal.τ).loc Cert.KernelIdeal.main_arg2)))),
    fun c => broadcastInDim Cert.KernelIdeal.S8192x1x4096 ![0, 2] Cert.KernelIdeal.Facts₀.bcast_S8192x4096_S8192x1x4096_0_2
      (arrIm (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (Cert.ReferenceIdeal.Read.val_main_v12 (F := Ideal) (m ((c.tc : Thread Cert.KernelIdeal.nD Cert.KernelIdeal.τ).loc Cert.KernelIdeal.main_arg2)))
        (Cert.ReferenceIdeal.Read.val_main_v14 (F := Ideal) (m ((c.tc : Thread Cert.KernelIdeal.nD Cert.KernelIdeal.τ).loc Cert.KernelIdeal.main_arg2)))),
    ?_, ?_⟩
  · refine (θ_run Cert.KernelIdeal.defs _ _).mono (fun r h c => ?_) (Cert.KernelIdeal.KValue.run m ρ)
    obtain ⟨h15, h16, h0, h1, h2⟩ := h c
    refine ⟨h15.trans ?_, h16.trans ?_, h0, h1, h2⟩
    · show broadcastInDim _ _ _ (arrRe (Cert.KernelIdeal.Gen.V m c Cert.KernelIdeal.main_arg0) (Cert.KernelIdeal.Gen.V m c Cert.KernelIdeal.main_arg1)
        (Cert.KernelIdeal.Gen.V m c Cert.KernelIdeal.main_v12) (Cert.KernelIdeal.Gen.V m c Cert.KernelIdeal.main_v13)) = _
      rw [Cert.KernelIdeal.Gen.V_main_arg0, Cert.KernelIdeal.Gen.V_main_arg1, V_row0, V_row1]
    · show broadcastInDim _ _ _ (arrIm (Cert.KernelIdeal.Gen.V m c Cert.KernelIdeal.main_arg0) (Cert.KernelIdeal.Gen.V m c Cert.KernelIdeal.main_arg1)
        (Cert.KernelIdeal.Gen.V m c Cert.KernelIdeal.main_v12) (Cert.KernelIdeal.Gen.V m c Cert.KernelIdeal.main_v13)) = _
      rw [Cert.KernelIdeal.Gen.V_main_arg0, Cert.KernelIdeal.Gen.V_main_arg1, V_row0, V_row1]
  · refine (θ_run Cert.ReferenceIdeal.defs _ _).mono (fun r h c => ?_) (Cert.ReferenceIdeal.Value.run (F := Ideal) m' ρ')
    obtain ⟨h22, h23, h0, h1, h2⟩ := h c
    obtain ⟨hx0, hx1, hx2, hne0, hne1⟩ := Cert.Rank1.PreDecode.decode _ _ _ (hpre c)
    have hr0 := Cert.ReferenceIdeal.RefValue.row0_real _ hx2 hne0
    have hr1 := Cert.ReferenceIdeal.RefValue.row1_real _ hx2 hne1
    refine ⟨h22.trans ?_, h23.trans ?_, h0, h1, h2⟩
    · rw [Cert.ReferenceIdeal.Read.val_main_v22_eq, (hagree c).1, (hagree c).2.1, (hagree c).2.2]
      unfold Cert.ReferenceIdeal.Read.val_main_v22
      rw [Cert.ReferenceIdeal.RefValue.re_eq _ _ _ hx0 hx1 hr0 hr1]
    · rw [Cert.ReferenceIdeal.Read.val_main_v23_eq, (hagree c).1, (hagree c).2.1, (hagree c).2.2]
      unfold Cert.ReferenceIdeal.Read.val_main_v23
      rw [Cert.ReferenceIdeal.RefValue.im_eq _ _ _ hx0 hx1 hr0 hr1]

end Cert.Proof.Claims

end
-- ==== Proof.lean ====
/-
  The rank-one projection of a complex vector, computed two ways, gives the same extended reals.

  With `r`, `s` the two projector columns, each divided by its Euclidean norm, and `vr`, `vi` the 8192 × 4096 real and
  imaginary parts, both programs compute

    (∑ k, vr b k · r k) · r d − (∑ k, vi b k · s k) · s d      and      (∑ k, vr b k · s k) · s d + (∑ k, vi b k · r k) · r d.

  The kernel computes exactly this: per block of 128 rows, four row coefficients and two combinations. The reference forms the
  two rank-one matrices `r rᵀ`, `s sᵀ` and multiplies by them, `∑ k, vr b k · (r k · r d)`; pulling the factor `r d` out of the sum
  is valid for real numbers, not at the infinities, so it uses the precondition: every input entry is finite and each column
  has a nonzero entry (so its norm is a positive real and `r`, `s` are real; at a zero column the quotient `0 / 0` is no number).
  The three frames are the generated ones (the reference's is its generated run with the results dropped), and the
  idealization rewrote nothing, so its claim is trivial.
-/
import proofs.«160668_j85813446574645_2_alg».proof.Defs
import proofs.«160668_j85813446574645_2_alg».proof.Proof.Gen.Kernel
import proofs.«160668_j85813446574645_2_alg».proof.Proof.Gen.KernelIdeal
import proofs.«160668_j85813446574645_2_alg».proof.Proof.Gen.ReferenceIdeal
import proofs.«160668_j85813446574645_2_alg».proof.Proof.Gen.Pre_finite_inputs
import proofs.«160668_j85813446574645_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
